-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x192x56x56 : Shape := ⟨4, ![64, 192, 56, 56]⟩
abbrev S_ : Shape := ⟨0, ![]⟩

class Facts : Prop where
  bcast_S_S64x192x56x56 : S_.BroadcastsInDim S64x192x56x56 (![] : Fin 0 → Fin S64x192x56x56.rank)
  reducesTo_S64x192x56x56_S_d0_1_2_3 : S64x192x56x56.ReducesTo [0, 1, 2, 3] S_
  h_S_ : 0 < S_.numel

variable [Facts]

def fn {F : FTy → Type} [FloatOps F] (main_arg0 : FVec F S64x192x56x56 .f32) : IVec S_ 1 :=
  let main_v0 : FVec F S64x192x56x56 .f32 := Host.absf main_arg0
  let main_cst : FVec F S_ .f32 := constant S_ .f32 0x7F800000#32
  let main_v1 : FVec F S64x192x56x56 .f32 := broadcastInDim S64x192x56x56 ![] bcast_S_S64x192x56x56 main_cst
  let main_v2 : IVec S64x192x56x56 1 := cmpf .olt main_v0 main_v1
  let main_c : IVec S_ 1 := constantI S_ 1 1#1
  let main_v3 : IVec S_ 1 := (fun x v => Host.reduce IntOp.andi x v reducesTo_S64x192x56x56_S_d0_1_2_3 h_S_) main_v2 main_c
  main_v3
-- ==== Kernel.lean ====
abbrev S64x192x56x56 : Shape := ⟨4, ![64, 192, 56, 56]⟩
abbrev S64x192x3136 : Shape := ⟨3, ![64, 192, 3136]⟩
abbrev S1x192x3136 : Shape := ⟨3, ![1, 192, 3136]⟩

abbrev nBuf : Space → Nat
  | .hbm => 4
  | .vmem => 4
  | .smem => 0
  | _ => 0

abbrev bufTy : (tb : Table) → Fin (tcTables nBuf tb) → BufTy
  | .hbm, ⟨0, _⟩ => ⟨S64x192x56x56, .f32⟩
  | .hbm, ⟨1, _⟩ => ⟨S64x192x3136, .f32⟩
  | .hbm, ⟨2, _⟩ => ⟨S64x192x3136, .f32⟩
  | .hbm, ⟨3, _⟩ => ⟨S64x192x56x56, .f32⟩
  | .local _ .vmem, ⟨0, _⟩ => ⟨S1x192x3136, .f32⟩
  | .local _ .vmem, ⟨1, _⟩ => ⟨S1x192x3136, .f32⟩
  | .local _ .vmem, ⟨2, _⟩ => ⟨S1x192x3136, .f32⟩
  | .local _ .vmem, ⟨3, _⟩ => ⟨S1x192x3136, .f32⟩
  | _, _ => ⟨S64x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x192x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x192x56x56_S64x192x3136 : S64x192x56x56.ShapeCasts S64x192x3136
  inb_S1x192x3136_S1x192x3136_0_0_0 : ∀ a, (![0, 0, 0] : Fin 3 → Nat) a + S1x192x3136.size a ≤ S1x192x3136.size a
  h_S1x192x3136 : 0 < S1x192x3136.numel
  shapeCasts_S1x192x3136_S1x192x3136 : S1x192x3136.ShapeCasts S1x192x3136
  iota_S1x192x3136_d1_w32 : S1x192x3136.Iotas .tc 32 [1]
  rotates_S1x192x3136_d1 : S1x192x3136.Rotates 1 none
  shapeCasts_S64x192x3136_S64x192x56x56 : S64x192x3136.ShapeCasts S64x192x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x192x3136.size a ≤ S64x192x3136.size a
  hwx0_0 : ∀ i : grid0.Coords, EltTy.bits .f32 = 32 ∨ (Rect.block (s := S64x192x3136) S1x192x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x192x3136.size a ≤ S64x192x3136.size a
  hwx0_1 : ∀ i : grid0.Coords, EltTy.bits .f32 = 32 ∨ (Rect.block (s := S64x192x3136) S1x192x3136.size (cc0_transform_1 i) (hinb0_1 i)).WholeWords (EltTy.packing .f32)

variable [Facts₀]

abbrev win0_0 : Pipeline.Window sig grid0 :=
  Pipeline.Window.ofSpec (Memref.whole main_v0) S1x192x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x192x3136.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x192x56x56 : Shape := ⟨4, ![64, 192, 56, 56]⟩
abbrev S_ : Shape := ⟨0, ![]⟩
abbrev S64x196x56x56 : Shape := ⟨4, ![64, 196, 56, 56]⟩

abbrev nBuf : Space → Nat
  | .hbm => 27
  | .vmem => 0
  | .smem => 0
  | _ => 0

abbrev bufTy : (tb : Table) → Fin (tcTables nBuf tb) → BufTy
  | .hbm, ⟨0, _⟩ => ⟨S64x192x56x56, .f32⟩
  | .hbm, ⟨1, _⟩ => ⟨S64x192x56x56, .f32⟩
  | .hbm, ⟨2, _⟩ => ⟨S_, .i32⟩
  | .hbm, ⟨3, _⟩ => ⟨S_, .f32⟩
  | .hbm, ⟨4, _⟩ => ⟨S64x196x56x56, .f32⟩
  | .hbm, ⟨5, _⟩ => ⟨S64x192x56x56, .f32⟩
  | .hbm, ⟨6, _⟩ => ⟨S64x192x56x56, .f32⟩
  | .hbm, ⟨7, _⟩ => ⟨S64x192x56x56, .f32⟩
  | .hbm, ⟨8, _⟩ => ⟨S64x192x56x56, .f32⟩
  | .hbm, ⟨9, _⟩ => ⟨S64x192x56x56, .f32⟩
  | .hbm, ⟨10, _⟩ => ⟨S64x192x56x56, .f32⟩
  | .hbm, ⟨11, _⟩ => ⟨S64x192x56x56, .f32⟩
  | .hbm, ⟨12, _⟩ => ⟨S64x192x56x56, .f32⟩
  | .hbm, ⟨13, _⟩ => ⟨S64x192x56x56, .f32⟩
  | .hbm, ⟨14, _⟩ => ⟨S_, .f32⟩
  | .hbm, ⟨15, _⟩ => ⟨S64x192x56x56, .f32⟩
  | .hbm, ⟨16, _⟩ => ⟨S64x192x56x56, .f32⟩
  | .hbm, ⟨17, _⟩ => ⟨S_, .f32⟩
  | .hbm, ⟨18, _⟩ => ⟨S64x192x56x56, .f32⟩
  | .hbm, ⟨19, _⟩ => ⟨S64x192x56x56, .f32⟩
  | .hbm, ⟨20, _⟩ => ⟨S_, .f32⟩
  | .hbm, ⟨21, _⟩ => ⟨S64x192x56x56, .f32⟩
  | .hbm, ⟨22, _⟩ => ⟨S64x192x56x56, .f32⟩
  | .hbm, ⟨23, _⟩ => ⟨S_, .f32⟩
  | .hbm, ⟨24, _⟩ => ⟨S64x192x56x56, .f32⟩
  | .hbm, ⟨25, _⟩ => ⟨S64x192x56x56, .f32⟩
  | .hbm, ⟨26, _⟩ => ⟨S64x192x56x56, .f32⟩
  | _, _ => ⟨S64x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  pads_S64x192x56x56_S64x196x56x56_000_220_000_000 : S64x192x56x56.Pads (![0, 2, 0, 0] : Fin 4 → Nat) ![0, 2, 0, 0] ![0, 0, 0, 0] S64x196x56x56
  h_S_ : 0 < S_.numel
  slices_S64x196x56x56_S64x192x56x56_0_0_0_0 : S64x196x56x56.Slices ![0, 0, 0, 0] S64x192x56x56
  slices_S64x196x56x56_S64x192x56x56_0_1_0_0 : S64x196x56x56.Slices ![0, 1, 0, 0] S64x192x56x56
  slices_S64x196x56x56_S64x192x56x56_0_2_0_0 : S64x196x56x56.Slices ![0, 2, 0, 0] S64x192x56x56
  slices_S64x196x56x56_S64x192x56x56_0_3_0_0 : S64x196x56x56.Slices ![0, 3, 0, 0] S64x192x56x56
  slices_S64x196x56x56_S64x192x56x56_0_4_0_0 : S64x196x56x56.Slices ![0, 4, 0, 0] S64x192x56x56
  bcast_S_S64x192x56x56 : S_.BroadcastsInDim S64x192x56x56 (![] : Fin 0 → Fin S64x192x56x56.rank)

variable [Facts₀]

class Facts : Prop extends Facts₀ where

variable [Facts]
-- ==== Proof.LibDivPowExp.lean ====
/-
  A quotient by a real power as a product with an exponential, on the extended reals.
-/
import Idealize.ShloMosaic.PureOps.Ideal

noncomputable section

namespace Cert.Lrn

open Idealize.ShloMosaic

/-- For a real `x`, a real base `b > 0` and a real exponent `p`: `x / b^p = x · exp(-p · log b)`, as extended
    reals. The base being positive, the power is `exp(p · log b)`, which is not zero, so the quotient is the product
    with its reciprocal `exp(-p · log b)`, and the logarithm is the real one. This joins a program that divides by
    `(1 + a)^p` to one that multiplies by `exp(-p · log1p a)`. -/
theorem div_pow_eq_mul_exp (x b p : ℝ) (hb : 0 < b) :
    Ideal.div (x : EReal) (Ideal.pow (b : EReal) (p : EReal))
      = (x : EReal) * Ideal.exp (((-p : ℝ) : EReal) * Ideal.log (b : EReal)) := by
  have hpos : 0 < Real.rpow b p := Real.rpow_pos_of_pos hb p
  rw [Ideal.pow_coe_coe, Ideal.div_coe (ne_of_gt hpos), Ideal.log_coe, if_neg (not_le.mpr hb)]
  rw [show ((-p : ℝ) : EReal) * ((Real.log b : ℝ) : EReal) = ((-p * Real.log b : ℝ) : EReal) from (EReal.coe_mul _ _).symm,
    Ideal.exp_coe]
  refine congrArg (fun t : ℝ => (x : EReal) * (t : EReal)) ?_
  show 1 / b ^ p = Real.exp (-p * Real.log b)
  rw [Real.rpow_def_of_pos hb, one_div, ← Real.exp_neg]
  congr 1
  ring

end Cert.Lrn

end
-- ==== Proof.LrnSpec.lean ====
/-
  Local response normalization over the channel axis, as one function of a channel column.

  Fix a batch entry and a spatial position; the 192 channel values there form a column `col`. Both programs
  compute, at channel `c`,

      col c / (1 + α · (W c · (1/5)))^(3/4),      W c = Σ_{d = -2..2} (col (c + d))²   (channels outside 0..191 count as zero),

  the kernel as the product `col c · exp(-(3/4) · log(1 + α · (W c · (1/5))))`, the reference as the quotient by the
  power. Here `α` and `1/5` are the same two single-precision literals in both programs, so they are never evaluated
  beyond their signs. The window sum is written over the column of squares padded by two zeros on each side
  (`padSq`): position `j` of the padded column is the square of channel `j - 2`.

  This module states the column function (`lrn`), the reordering of the five window terms the kernel uses, and the
  one analytic law that joins the two programs on a column of real numbers: for `b > 0`,
  `x / b^p = x · exp(-p · log b)` (Proof/LibDivPowExp.lean), applied at the base `1 + α · (W · (1/5)) ≥ 1`.
-/
import Idealize.ShloMosaic.PureOps.Ideal
import Idealize.ShloMosaic.PureOps.Ideal.Laws
import Idealize.ShloMosaic.Lib.ValueIdx
import proofs.«174724_j51659866636963_2_alg».proof.Proof.LibDivPowExp

noncomputable section

namespace Cert.Lrn

open Idealize.ShloMosaic

/-! ## The literals -/

/-- The scale `α` (the single-precision number nearest 1e-4) is a positive real. -/
theorem alpha_eq : Ideal.ofBits .f32 0x38D1B717#32 = ((13743895 / 137438953472 : ℝ) : EReal) := by
  simp [Ideal.ofBits, Ideal.ieee, -EReal.coe_mul]; norm_num

/-- The averaging factor (the single-precision number nearest 1/5) is a positive real. -/
theorem fifth_eq : Ideal.ofBits .f32 0x3E4CCCCD#32 = ((13421773 / 67108864 : ℝ) : EReal) := by
  simp [Ideal.ofBits, Ideal.ieee, -EReal.coe_mul]; norm_num

/-- The reference's exponent is exactly 3/4. -/
theorem three_quarters_eq : Ideal.ofBits .f32 0x3F400000#32 = ((3 / 4 : ℝ) : EReal) := by
  simp [Ideal.ofBits, Ideal.ieee, -EReal.coe_mul]; norm_num

/-- The kernel's factor in front of the logarithm is exactly -3/4. -/
theorem neg_three_quarters_eq : Ideal.ofBits .f32 0xBF400000#32 = ((-(3 / 4) : ℝ) : EReal) := by
  simp [Ideal.ofBits, Ideal.ieee, -EReal.coe_mul, -EReal.coe_neg]; norm_num

/-- The reference's summand `1.0` is one. -/
theorem one_eq : Ideal.ofBits .f32 0x3F800000#32 = ((1 : ℝ) : EReal) := by
  simp [Ideal.ofBits, Ideal.ieee, -EReal.coe_mul]; norm_num

/-! ## The column function -/

/-- The squares of a channel column, padded by two zeros on each side: position `j` holds the square of channel
    `j - 2` for `2 ≤ j < 194`, and zero otherwise. -/
def padSq (col : ℕ → EReal) (j : ℕ) : EReal :=
  if 2 ≤ j ∧ j < 194 then col (j - 2) * col (j - 2) else 0

/-- The window sum at channel `c`: the padded squares at positions `c … c + 4`, that is, the squares of the channels
    `c - 2 … c + 2` that exist. -/
def winSum (col : ℕ → EReal) (c : ℕ) : EReal :=
  padSq col c + padSq col (c + 1) + padSq col (c + 2) + padSq col (c + 3) + padSq col (c + 4)

/-- The normalized value at channel `c` of a column, in the kernel's form: the entry times
    `exp(-(3/4) · log(1 + α · (W · (1/5))))`. -/
def lrn (col : ℕ → EReal) (c : ℕ) : EReal :=
  col c * Ideal.exp (Ideal.ofBits .f32 0xBF400000#32
    * Ideal.log1p (Ideal.ofBits .f32 0x38D1B717#32 * (winSum col c * Ideal.ofBits .f32 0x3E4CCCCD#32)))

/-- The kernel adds the five window terms centre first, then the neighbours at distance one, then those at distance
    two; addition of extended reals is commutative and associative, so this is the window sum. -/
theorem winSum_centre_first (col : ℕ → EReal) (c : ℕ) :
    padSq col (c + 2) + padSq col (c + 1) + padSq col (c + 3) + padSq col c + padSq col (c + 4) = winSum col c := by
  unfold winSum
  ac_rfl

/-- The kernel's value from its five window terms: an entry `x` of the column and the five padded squares, added
    centre first, give the column function. -/
theorem lrn_of_terms (col : ℕ → EReal) (c : ℕ) (x s0 d1 u1 d2 u2 : EReal) (hx : x = col c)
    (h0 : s0 = padSq col (c + 2)) (h1 : d1 = padSq col (c + 1)) (h2 : u1 = padSq col (c + 3))
    (h3 : d2 = padSq col c) (h4 : u2 = padSq col (c + 4)) :
    x * Ideal.exp (Ideal.ofBits .f32 0xBF400000#32
      * Ideal.log1p (Ideal.ofBits .f32 0x38D1B717#32 * ((s0 + d1 + u1 + d2 + u2) * Ideal.ofBits .f32 0x3E4CCCCD#32)))
      = lrn col c := by
  subst hx h0 h1 h2 h3 h4
  unfold lrn
  rw [winSum_centre_first]

/-- A padded square outside the 192 channels is zero. -/
theorem padSq_outside (col : ℕ → EReal) (j : ℕ) (h : ¬(2 ≤ j ∧ j < 194)) : padSq col j = 0 := by
  unfold padSq
  rw [if_neg h]

/-! ## The normalized array -/

/-- The channel column of a 64 × 192 × 56 × 56 array at batch entry `n` and spatial position `(h, w)`: channel
    `j`'s value for `j < 192`, zero beyond (the value beyond is never read: the padded squares vanish there). -/
def col4 (x : (⟨4, ![64, 192, 56, 56]⟩ : Shape).Idx → EReal) (n : Fin 64) (h w : Fin 56) (j : ℕ) : EReal :=
  if hj : j < 192 then x (ValueIdx.ix4 n ⟨j, hj⟩ h w) else 0

/-- The normalized array: at (n, c, h, w) the column function of the column at (n, ·, h, w), at channel c. Both
    programs' results are stated as this one function of the argument array. -/
def lrn4 (x : (⟨4, ![64, 192, 56, 56]⟩ : Shape).Idx → EReal) : (⟨4, ![64, 192, 56, 56]⟩ : Shape).Idx → EReal :=
  fun i => lrn (col4 x (i 0) (i 2) (i 3)) (i 1).val

theorem lrn4_apply (x : (⟨4, ![64, 192, 56, 56]⟩ : Shape).Idx → EReal) (n : Fin 64) (c : Fin 192) (h w : Fin 56) :
    lrn4 x (ValueIdx.ix4 n c h w) = lrn (col4 x n h w) c.val := rfl

/-! ## On a column of real numbers the quotient by the power is the product with the exponential -/

/-- The padded squares of a column of real numbers, as real numbers. -/
def padSqR (f : ℕ → ℝ) (j : ℕ) : ℝ := if 2 ≤ j ∧ j < 194 then f (j - 2) * f (j - 2) else 0

theorem padSq_coe (f : ℕ → ℝ) (j : ℕ) : padSq (fun k => (f k : EReal)) j = (padSqR f j : EReal) := by
  unfold padSq padSqR
  split_ifs
  · exact (EReal.coe_mul _ _).symm
  · exact EReal.coe_zero.symm

/-- A padded square is a square or zero: never negative. -/
theorem padSqR_nonneg (f : ℕ → ℝ) (j : ℕ) : 0 ≤ padSqR f j := by
  unfold padSqR
  split_ifs
  · exact mul_self_nonneg _
  · exact le_refl _

/-- The window sum of a real column is a nonnegative real. -/
theorem winSum_coe (f : ℕ → ℝ) (c : ℕ) : ∃ w : ℝ, 0 ≤ w ∧ winSum (fun k => (f k : EReal)) c = (w : EReal) := by
  refine ⟨padSqR f c + padSqR f (c + 1) + padSqR f (c + 2) + padSqR f (c + 3) + padSqR f (c + 4), ?_, ?_⟩
  · have h0 := padSqR_nonneg f c
    have h1 := padSqR_nonneg f (c + 1)
    have h2 := padSqR_nonneg f (c + 2)
    have h3 := padSqR_nonneg f (c + 3)
    have h4 := padSqR_nonneg f (c + 4)
    linarith
  · unfold winSum
    rw [padSq_coe, padSq_coe, padSq_coe, padSq_coe, padSq_coe, ← EReal.coe_add, ← EReal.coe_add, ← EReal.coe_add,
      ← EReal.coe_add]

/-- THE LAW: on a column of real numbers, the reference's quotient `col c / (1 + α · (W · (1/5)))^(3/4)` is the
    kernel's product `lrn col c`. The base is at least one because `α`, `1/5` and the window sum of squares are
    nonnegative, so the logarithm and the power are the real ones. -/
theorem div_pow_eq_lrn (col : ℕ → EReal) (hcol : ∀ j, ∃ r : ℝ, col j = (r : EReal)) (c : ℕ) :
    Ideal.div (col c) (Ideal.pow (Ideal.ofBits .f32 0x3F800000#32
        + Ideal.ofBits .f32 0x38D1B717#32 * (winSum col c * Ideal.ofBits .f32 0x3E4CCCCD#32))
      (Ideal.ofBits .f32 0x3F400000#32)) = lrn col c := by
  choose f hf using hcol
  obtain rfl : col = fun k => (f k : EReal) := funext hf
  obtain ⟨w, hw, hW⟩ := winSum_coe f c
  unfold lrn Ideal.log1p
  rw [hW, alpha_eq, fifth_eq, three_quarters_eq, neg_three_quarters_eq, one_eq]
  have hbase : ((1 : ℝ) : EReal) + ((13743895 / 137438953472 : ℝ) : EReal) * ((w : EReal) * ((13421773 / 67108864 : ℝ) : EReal))
      = ((1 + 13743895 / 137438953472 * (w * (13421773 / 67108864)) : ℝ) : EReal) := by
    rw [← EReal.coe_mul, ← EReal.coe_mul, ← EReal.coe_add]
  have hone : (1 : EReal) = ((1 : ℝ) : EReal) := EReal.coe_one.symm
  rw [hone, hbase]
  have hb : (0 : ℝ) < 1 + 13743895 / 137438953472 * (w * (13421773 / 67108864)) := by positivity
  exact div_pow_eq_mul_exp (f c) _ (3 / 4) hb

end Cert.Lrn

end
-- ==== Proof.RefColumn.lean ====
/-
  The reference, read one channel column at a time.

  The reference squares the input, pads the squares with two zero channels on each side, adds the five slices of the
  padded array that start at channels 0 … 4, scales, adds one, raises to the power 3/4 and divides the input by the
  result. At the index (n, c, h, w) every slice reads the padded array at (n, c + k, h, w), which is the padded column
  of squares of the column of x at (n, ·, h, w) (`padded_apply`); so the five slices add up to the window sum of that
  column, and the result is the column's quotient form (`reference_apply`). When every entry of x is a real number the
  quotient is the product with the exponential (`Cert.Lrn.div_pow_eq_lrn`), so the reference computes `lrn4 x`.
-/
import proofs.«174724_j51659866636963_2_alg».proof.Proof.Gen.ReferenceIdeal.Read
import proofs.«174724_j51659866636963_2_alg».proof.Proof.LrnSpec
import Idealize.ShloMosaic.Lib.KernelVsHost
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Lrn

/-- The padding value, the integer zero converted to a float, is zero. -/
theorem pad_value_zero : val_main_call0_v0 (F := Ideal) (Shape.Idx.first h_S_) = 0 := by
  show (((0#32 : BitVec 32).toInt : ℝ) : EReal) = 0
  simp

/-- The padded array of squares at (n, j, h, w) is the padded column of squares of the column at (n, ·, h, w):
    the square of channel j - 2 inside, the padding value zero in the two channels before and after. -/
theorem padded_apply (x : FVec Ideal S64x192x56x56 .f32) (n : Fin 64) (j : Fin 196) (h w : Fin 56) :
    val_main_v1 (F := Ideal) x (ix4 n j h w) = padSq (col4 x n h w) j.val := by
  unfold val_main_v1 padSq
  by_cases hj : 2 ≤ j.val ∧ j.val < 194
  · have hlt : j.val - 2 < 192 := by omega
    rw [if_pos hj]
    refine (pad_apply_of_inside ![0, 2, 0, 0] ![0, 2, 0, 0] ![0, 0, 0, 0] (val_main_v0 (F := Ideal) x)
      (val_main_call0_v0 (F := Ideal)) pads_S64x192x56x56_S64x196x56x56_000_220_000_000 h_S_ (ix4 n j h w)
      (ix4 n ⟨j.val - 2, hlt⟩ h w) (fun a => match a with
        | ⟨0, _⟩ => by show n.val = 0 + n.val * (0 + 1); omega
        | ⟨1, _⟩ => by show j.val = 2 + (j.val - 2) * (0 + 1); omega
        | ⟨2, _⟩ => by show h.val = 0 + h.val * (0 + 1); omega
        | ⟨3, _⟩ => by show w.val = 0 + w.val * (0 + 1); omega)).trans ?_
    rw [val_main_v0_apply]
    unfold col4
    rw [dif_pos hlt]
    rfl
  · rw [if_neg hj]
    refine (pad_apply_of_not_inside ![0, 2, 0, 0] ![0, 2, 0, 0] ![0, 0, 0, 0] (val_main_v0 (F := Ideal) x)
      (val_main_call0_v0 (F := Ideal)) pads_S64x192x56x56_S64x196x56x56_000_220_000_000 h_S_ (ix4 n j h w) 1 ?_).trans
      pad_value_zero
    show ¬(2 ≤ j.val ∧ (j.val - 2) % (0 + 1) = 0 ∧ (j.val - 2) / (0 + 1) < 192)
    omega

/-- The reference at (n, c, h, w): the entry divided by `(1 + α · (W · (1/5)))^(3/4)`, `W` the window sum of the
    column at (n, ·, h, w) at channel c. Slice k of the padded array reads it at channel c + k. -/
theorem reference_apply (x : FVec Ideal S64x192x56x56 .f32) (n : Fin 64) (c : Fin 192) (h w : Fin 56) :
    val_main_v19 (F := Ideal) x (ix4 n c h w)
      = Ideal.div (x (ix4 n c h w)) (Ideal.pow (Ideal.ofBits .f32 0x3F800000#32
          + Ideal.ofBits .f32 0x38D1B717#32 * (winSum (col4 x n h w) c.val * Ideal.ofBits .f32 0x3E4CCCCD#32))
        (Ideal.ofBits .f32 0x3F400000#32)) := by
  have hc := c.isLt
  have e0 : idx_main_v2 (ix4 n c h w) = ix4 n (⟨c.val, by omega⟩ : Fin 196) h w :=
    funext fun a => match a with | ⟨0, _⟩ => rfl | ⟨1, _⟩ => rfl | ⟨2, _⟩ => rfl | ⟨3, _⟩ => rfl
  have e1 : idx_main_v3 (ix4 n c h w) = ix4 n (⟨c.val + 1, by omega⟩ : Fin 196) h w :=
    funext fun a => match a with
      | ⟨0, _⟩ => rfl | ⟨1, _⟩ => Fin.ext (Nat.add_comm 1 c.val) | ⟨2, _⟩ => rfl | ⟨3, _⟩ => rfl
  have e2 : idx_main_v5 (ix4 n c h w) = ix4 n (⟨c.val + 2, by omega⟩ : Fin 196) h w :=
    funext fun a => match a with
      | ⟨0, _⟩ => rfl | ⟨1, _⟩ => Fin.ext (Nat.add_comm 2 c.val) | ⟨2, _⟩ => rfl | ⟨3, _⟩ => rfl
  have e3 : idx_main_v7 (ix4 n c h w) = ix4 n (⟨c.val + 3, by omega⟩ : Fin 196) h w :=
    funext fun a => match a with
      | ⟨0, _⟩ => rfl | ⟨1, _⟩ => Fin.ext (Nat.add_comm 3 c.val) | ⟨2, _⟩ => rfl | ⟨3, _⟩ => rfl
  have e4 : idx_main_v9 (ix4 n c h w) = ix4 n (⟨c.val + 4, by omega⟩ : Fin 196) h w :=
    funext fun a => match a with
      | ⟨0, _⟩ => rfl | ⟨1, _⟩ => Fin.ext (Nat.add_comm 4 c.val) | ⟨2, _⟩ => rfl | ⟨3, _⟩ => rfl
  rw [val_main_v19_apply, val_main_v18_apply, val_main_v17_apply, val_main_cst_2_apply, val_main_v16_apply,
    val_main_v15_apply, val_main_cst_1_apply, val_main_v14_apply, val_main_v13_apply, val_main_cst_0_apply,
    val_main_v12_apply, val_main_v11_apply, val_main_cst_apply, val_main_v10_apply, val_main_v9_apply,
    val_main_v8_apply, val_main_v7_apply, val_main_v6_apply, val_main_v5_apply, val_main_v4_apply, val_main_v3_apply,
    val_main_v2_apply, e0, e1, e2, e3, e4, padded_apply, padded_apply, padded_apply, padded_apply, padded_apply]
  simp only [Ideal.hostDivf_def, Ideal.hostPowf_def, Ideal.addf_def, Ideal.mulf_def, Ideal.ofBits_def]
  rfl

/-- When every entry of x is a real number the reference computes the normalized array. -/
theorem reference_eq_lrn4 (x : FVec Ideal S64x192x56x56 .f32) (hfin : ∀ i, ∃ r : ℝ, x i = (r : EReal)) :
    val_main_v19 (F := Ideal) x = lrn4 x := by
  funext i
  obtain ⟨n, c, h, w, rfl⟩ : ∃ (n : Fin 64) (c : Fin 192) (h w : Fin 56), i = ix4 n c h w :=
    ⟨i 0, i 1, i 2, i 3, eq_ix4 i⟩
  have hcol : ∀ j, ∃ r : ℝ, col4 x n h w j = (r : EReal) := fun j => by
    unfold col4
    by_cases hj : j < 192
    · rw [dif_pos hj]; exact hfin _
    · rw [dif_neg hj]; exact ⟨0, EReal.coe_zero.symm⟩
  have hx : x (ix4 n c h w) = col4 x n h w c.val := by
    unfold col4
    rw [dif_pos c.isLt]
  rw [reference_apply, lrn4_apply, hx]
  exact div_pow_eq_lrn (col4 x n h w) hcol c.val

end Cert.ReferenceIdeal.RefValue

end
-- ==== Proof.KernelColumn.lean ====
/-
  The kernel's body, read one channel column at a time.

  The body loads a block x0 of one batch entry — 192 channels by 3136 spatial positions —, squares it, and adds to
  each square its four channel neighbours: the squares rotated along the channel axis by 1, 191, 2 and 190 places,
  each kept only where the rotation did not wrap around (a comparison of the channel number with 1, 191, 2, 190) and
  replaced by zero elsewhere. A rotation by s places reads channel (c + 192 - s) mod 192, so the four kept terms are
  the squares of the channels c - 1, c + 1, c - 2, c + 2 where these exist: together with the centre, the five padded
  squares of the column of x0 at that spatial position. The rest of the body is pointwise, so the stored value at
  (0, c, l) is the column function of the column at l, at channel c (`payload_apply`).
-/
import proofs.«174724_j51659866636963_2_alg».proof.Proof.Gen.KernelIdeal.Skeleton
import proofs.«174724_j51659866636963_2_alg».proof.Proof.LrnSpec
import Idealize.ShloMosaic.Lib.KernelVsHost
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx
open Cert.Lrn

/-- The channel column of a block at spatial position `l`: channel `j`'s value for `j < 192`, zero beyond. -/
def colB (x0 : FVec Ideal S1x192x3136 .f32) (l : Fin 3136) (j : ℕ) : EReal :=
  if hj : j < 192 then x0 (ix3 (0 : Fin 1) ⟨j, hj⟩ l) else 0

/-- Inside the 192 channels the padded square at position `j` is the square of the block's channel `j - 2`. -/
theorem padSq_colB_inside (x0 : FVec Ideal S1x192x3136 .f32) (l : Fin 3136) (j : ℕ) (k : Fin 192) (h2 : 2 ≤ j)
    (hk : k.val = j - 2) : padSq (colB x0 l) j = x0 (ix3 (0 : Fin 1) k l) * x0 (ix3 (0 : Fin 1) k l) := by
  have hlt : j - 2 < 192 := hk ▸ k.isLt
  obtain rfl : k = ⟨j - 2, hlt⟩ := Fin.ext hk
  unfold padSq
  rw [if_pos ⟨h2, by omega⟩]
  unfold colB
  rw [dif_pos hlt]

/-! ## The channel comparisons, decided over the 192 channels -/

theorem ge_one : ∀ c : Fin 192, IntOp.cmpi .sge (BitVec.ofNat 32 c.val) 1#32 = if 1 ≤ c.val then 1#1 else 0#1 := by
  decide +kernel
theorem ge_two : ∀ c : Fin 192, IntOp.cmpi .sge (BitVec.ofNat 32 c.val) 2#32 = if 2 ≤ c.val then 1#1 else 0#1 := by
  decide +kernel
theorem lt_191 : ∀ c : Fin 192, IntOp.cmpi .slt (BitVec.ofNat 32 c.val) 191#32 = if c.val < 191 then 1#1 else 0#1 := by
  decide +kernel
theorem lt_190 : ∀ c : Fin 192, IntOp.cmpi .slt (BitVec.ofNat 32 c.val) 190#32 = if c.val < 190 then 1#1 else 0#1 := by
  decide +kernel

/-! ## A rotation along the channel axis kept where a channel comparison holds -/

/-- At (0, c, l): where the comparison of the channel number `c` with the bound holds (`P`), the rotated array,
    which reads channel `(c + 192 - shift) mod 192` of the operand; elsewhere the fill value. -/
theorem masked_rotate_apply {α : Type} (hI : S1x192x3136.Iotas .tc 32 [1]) (hR : S1x192x3136.Rotates 1 none)
    (p : CmpIPredicate) (bnd sh : BitVec 32) (sq : S1x192x3136.Idx → α) (z : α) (c : Fin 192) (l : Fin 3136)
    (P : Prop) [Decidable P] (k : Fin 192)
    (hcmp : IntOp.cmpi p (BitVec.ofNat 32 c.val) bnd = if P then 1#1 else 0#1)
    (hk : k.val = (c.val + 192 - sh.toNat % 192) % 192) :
    select (cmpi p (iota .tc S1x192x3136 32 [1] hI) (broadcast S1x192x3136 bnd)) (dynamicRotate 1 sh none sq hR)
        (broadcast S1x192x3136 z) (ix3 (0 : Fin 1) c l)
      = if P then sq (ix3 (0 : Fin 1) k l) else z := by
  rw [select_apply, broadcast_apply]
  show Scalar.select (IntOp.cmpi p (iota .tc S1x192x3136 32 [1] hI (ix3 (0 : Fin 1) c l)) bnd) _ z = _
  rw [iota_single_apply]
  show Scalar.select (IntOp.cmpi p (BitVec.ofNat 32 c.val) bnd) _ z = _
  rw [hcmp]
  by_cases hP : P
  · rw [if_pos hP, if_pos hP, select_one]
    exact dynamicRotate_apply 1 sh sq hR (ix3 (0 : Fin 1) c l) (ix3 (0 : Fin 1) k l) (fun b => match b with
      | ⟨0, _⟩ => rfl
      | ⟨1, _⟩ => hk
      | ⟨2, _⟩ => rfl)
  · rw [if_neg hP, if_neg hP, select_zero]

/-! ## The stored value at an index -/

theorem exp_apply {s : Shape} {φ : FTy} (v : FVec Ideal s φ) (i : s.Idx) : exp v i = Ideal.exp (v i) := rfl
theorem log1p_apply {s : Shape} {φ : FTy} (v : FVec Ideal s φ) (i : s.Idx) : log1p v i = Ideal.log1p (v i) := rfl

/-- The body's stored value at (0, c, l) is the column function of the block's column at `l`, at channel `c`. -/
theorem payload_apply (x0 : FVec Ideal S1x192x3136 .f32) (c : Fin 192) (l : Fin 3136) :
    k0_pay1 (F := Ideal) x0 (ix3 (0 : Fin 1) c l) = lrn (colB x0 l) c.val := by
  have hc := c.isLt
  unfold k0_pay1
  dsimp only
  rw [shapeCast_self]
  simp only [mulf_apply, addf_apply, broadcast_apply, exp_apply, log1p_apply, Ideal.ofBits_def]
  rw [masked_rotate_apply iota_S1x192x3136_d1_w32 rotates_S1x192x3136_d1 .sge 1#32 1#32 (mulf x0 x0)
      (Ideal.ofBits .f32 0#32) c l (1 ≤ c.val) ⟨(c.val + 191) % 192, Nat.mod_lt _ (by decide)⟩ (ge_one c)
      (by show (c.val + 191) % 192 = (c.val + 192 - 1 % 192) % 192; omega),
    masked_rotate_apply iota_S1x192x3136_d1_w32 rotates_S1x192x3136_d1 .slt 191#32 191#32 (mulf x0 x0)
      (Ideal.ofBits .f32 0#32) c l (c.val < 191) ⟨(c.val + 1) % 192, Nat.mod_lt _ (by decide)⟩ (lt_191 c)
      (by show (c.val + 1) % 192 = (c.val + 192 - 191 % 192) % 192; omega),
    masked_rotate_apply iota_S1x192x3136_d1_w32 rotates_S1x192x3136_d1 .sge 2#32 2#32 (mulf x0 x0)
      (Ideal.ofBits .f32 0#32) c l (2 ≤ c.val) ⟨(c.val + 190) % 192, Nat.mod_lt _ (by decide)⟩ (ge_two c)
      (by show (c.val + 190) % 192 = (c.val + 192 - 2 % 192) % 192; omega),
    masked_rotate_apply iota_S1x192x3136_d1_w32 rotates_S1x192x3136_d1 .slt 190#32 190#32 (mulf x0 x0)
      (Ideal.ofBits .f32 0#32) c l (c.val < 190) ⟨(c.val + 2) % 192, Nat.mod_lt _ (by decide)⟩ (lt_190 c)
      (by show (c.val + 2) % 192 = (c.val + 192 - 190 % 192) % 192; omega)]
  refine lrn_of_terms (colB x0 l) c.val _ _ _ _ _ _ ?_ ?_ ?_ ?_ ?_ ?_
  · unfold colB
    rw [dif_pos hc]
  · exact (padSq_colB_inside x0 l (c.val + 2) c (by omega) (by omega)).symm
  · by_cases h : 1 ≤ c.val
    · rw [if_pos h]
      exact (padSq_colB_inside x0 l (c.val + 1) _ (by omega) (by show (c.val + 191) % 192 = c.val + 1 - 2; omega)).symm
    · rw [if_neg h, Ideal.ofBits_zero_f32]
      exact (padSq_outside _ _ (by omega)).symm
  · by_cases h : c.val < 191
    · rw [if_pos h]
      exact (padSq_colB_inside x0 l (c.val + 3) _ (by omega) (by show (c.val + 1) % 192 = c.val + 3 - 2; omega)).symm
    · rw [if_neg h, Ideal.ofBits_zero_f32]
      exact (padSq_outside _ _ (by omega)).symm
  · by_cases h : 2 ≤ c.val
    · rw [if_pos h]
      exact (padSq_colB_inside x0 l c.val _ (by omega) (by show (c.val + 190) % 192 = c.val - 2; omega)).symm
    · rw [if_neg h, Ideal.ofBits_zero_f32]
      exact (padSq_outside _ _ (by omega)).symm
  · by_cases h : c.val < 190
    · rw [if_pos h]
      exact (padSq_colB_inside x0 l (c.val + 4) _ (by omega) (by show (c.val + 2) % 192 = c.val + 4 - 2; omega)).symm
    · rw [if_neg h, Ideal.ofBits_zero_f32]
      exact (padSq_outside _ _ (by omega)).symm

end Cert.KernelIdeal.BlockValue

end
-- ==== Proof.KernelArray.lean ====
/-
  From blocks to the array, and through the two reshapes.

  The call runs over 64 grid points; point t loads block t of the 64 × 192 × 3136 input — batch entry t, all channels,
  all spatial positions — and writes back block t of the output. The body's stored value at (0, c, l) is the column
  function of the block's column at l (`Cert.KernelIdeal.BlockValue.payload_apply`), and the block's column at l is the
  array's column at (t, ·, l); so what point t writes back is block t of ONE function of the whole input, `lrn3`. The 64
  blocks cover the output, hence the output array ends as `lrn3` of the input array.

  Around the call the program reshapes 64 × 192 × 56 × 56 to 64 × 192 × 3136 and back. A row-major reshape that
  merges the last two axes reads (n, c, h, w) at (n, c, 56 h + w); the channel axis is untouched, so the column at
  (n, ·, 56 h + w) of the merged array is the column at (n, ·, h, w) of the original, and the program's result is the
  normalized array `Cert.Lrn.lrn4` of its argument (`result_eq`).
-/
import proofs.«174724_j51659866636963_2_alg».proof.Proof.Gen.KernelIdeal.Frame
import proofs.«174724_j51659866636963_2_alg».proof.Proof.KernelColumn
import Idealize.ShloMosaic.Lib.Pipeline.Value
import Idealize.ShloMosaic.Lib.ValueLayout
import Idealize.ShloMosaic.Lib.StableHlo.Run

set_option maxRecDepth 16384

noncomputable section

namespace Cert.KernelIdeal.ArrayValue

open Cert.KernelIdeal Cert.KernelIdeal.Gen Cert.KernelIdeal.BlockValue
open Idealize.ShloMosaic Idealize.ShloMosaic.TcCoe Idealize.ShloMosaic.ValueIdx Idealize.SL.Sem
open Idealize.ShloMosaic.Pipeline (Dat)
open Cert.Lrn

variable (m : (ℓ : Loc nD τ sig) → Buf (Elt Ideal) ℓ) (ρ : Dev nD → PrngReg)

/-! ## One function of the whole 64 × 192 × 3136 array -/

/-- The channel column of the merged array at batch entry `n` and merged spatial position `l`. -/
def col3 (Y : FVec Ideal S64x192x3136 .f32) (n : Fin 64) (l : Fin 3136) (j : ℕ) : EReal :=
  if hj : j < 192 then Y (ix3 n ⟨j, hj⟩ l) else 0

/-- The normalized merged array: at (n, c, l) the column function of the column at (n, ·, l), at channel c. -/
def lrn3 (Y : FVec Ideal S64x192x3136 .f32) : FVec Ideal S64x192x3136 .f32 :=
  fun i => lrn (col3 Y (i 0) (i 2)) (i 1).val

/-- The body's stored value on a block that is batch entry `n` of an array `Y`, at a block index `y`, is `lrn3 Y`
    at the array index `i` with the same channel and position in batch entry `n`. -/
theorem block_value (x0 : FVec Ideal S1x192x3136 .f32) (Y : FVec Ideal S64x192x3136 .f32) (n : Fin 64)
    (y : S1x192x3136.Idx) (i : S64x192x3136.Idx)
    (hx : ∀ (j : Fin 192) (l : Fin 3136), x0 (ix3 (0 : Fin 1) j l) = Y (ix3 n j l))
    (h0 : (i 0).val = n.val) (h1 : (i 1).val = (y 1).val) (h2 : (i 2).val = (y 2).val) :
    k0_pay1 (F := Ideal) x0 y = lrn3 Y i := by
  obtain ⟨a, cc, ll, rfl⟩ : ∃ (a : Fin 1) (cc : Fin 192) (ll : Fin 3136), y = ix3 a cc ll := ⟨y 0, y 1, y 2, eq_ix3 y⟩
  obtain ⟨n', c', l', rfl⟩ : ∃ (n' : Fin 64) (c' : Fin 192) (l' : Fin 3136), i = ix3 n' c' l' := ⟨i 0, i 1, i 2, eq_ix3 i⟩
  obtain rfl : a = 0 := Subsingleton.elim _ _
  obtain rfl : n' = n := Fin.ext h0
  obtain rfl : c' = cc := Fin.ext h1
  obtain rfl : l' = ll := Fin.ext h2
  rw [payload_apply]
  show lrn (colB x0 l') c'.val = lrn (col3 Y n' l') c'.val
  refine congrArg (fun col => lrn col c'.val) (funext fun j => ?_)
  unfold colB col3
  by_cases hj : j < 192
  · rw [dif_pos hj, dif_pos hj]; exact hx ⟨j, hj⟩ l'
  · rw [dif_neg hj, dif_neg hj]

/-! ## The blocks -/

theorem hz : (![0, 0, 0] : Fin 3 → Nat) = fun _ => 0 := funext fun a => by fin_cases a <;> rfl

/-- The printed index maps over the grid: at point t both windows are at block (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The grid point as a batch entry. -/
def batchOf (t : Fin cfg0.N) : Fin 64 := ⟨t.val, N_0 ▸ t.isLt⟩

/-- The input block at point t, at (0, j, l), is the input array at (t, j, l). -/
theorem iblk_apply (c : Dev nD) (t : Fin cfg0.N) (j : Fin 192) (l : Fin 3136) :
    iblk m c 0 t (ix3 (0 : Fin 1) j l) = V m c main_v0 (ix3 (batchOf t) j l) := by
  obtain ⟨e0, e1, e2, -⟩ := idx_facts t
  show V m c main_v0 (((cfg0.win 0).blk t).view.emb (ix3 (0 : Fin 1) j l)) = V m c main_v0 (ix3 (batchOf t) j l)
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 192 + 1 * j.val = j.val; omega
  | ⟨2, _⟩ => show win0_0.index t (2 : Fin 3) * 3136 + 1 * l.val = l.val; omega

/-- WHAT POINT t WRITES BACK is block t of `lrn3` of the input array as the call finds it. -/
theorem flushed_eq (c : Dev nD) (t : Fin cfg0.N) :
    (dats m 0 c).flushed 1 t = ((cfg0.win 1).blk t).view.read (Elt Ideal) (lrn3 (V m c main_v0)) := by
  show (cfg0.win 1).cut (grid0.coords t) ((dats m 0 c).after 1 t) = _
  rw [after0_1]
  unfold out0_1
  rw [View.canon_unit_zero hz]
  simp only [View.ld_unit_zero (S := S1x192x3136) hz]
  obtain ⟨-, -, -, e0, e1, e2⟩ := idx_facts t
  funext y
  show k0_pay1 (F := Ideal) (iblk m c 0 t) y = lrn3 (V m c main_v0) (((cfg0.win 1).blk t).view.emb y)
  refine block_value (iblk m c 0 t) (V m c main_v0) (batchOf t) y _ (iblk_apply m c t) ?_ ?_ ?_
  · show win0_1.index t (0 : Fin 3) * 1 + 1 * (y 0).val = t.val
    have hy : (y 0).val < 1 := (y 0).isLt
    omega
  · show win0_1.index t (1 : Fin 3) * 192 + 1 * (y 1).val = (y 1).val
    omega
  · show win0_1.index t (2 : Fin 3) * 3136 + 1 * (y 2).val = (y 2).val
    omega

/-- An index of the output array is in point t's block iff each coordinate is in the block's range on its axis. -/
theorem mem_blk (t : Fin cfg0.N) (i : S64x192x3136.Idx) :
    i ∈ ((cfg0.win 1).blk t).view.set ↔ ∀ a : Fin 3, win0_1.index t a * S1x192x3136.size a ≤ (i a).val
      ∧ (i a).val < win0_1.index t a * S1x192x3136.size a + S1x192x3136.size a := by
  show i ∈ ((View.whole main_v1).slice (win0_1.rect t)).set ↔ _
  rw [View.set_slice_whole, Rect.mem_set_unit]
  exact Iff.rfl

/-- Every index of the output array is in the block of the point numbered by its batch entry. -/
theorem cover (i : S64x192x3136.Idx) :
    ∃ t : Fin cfg0.N, (cfg0.win 1).flush t = true ∧ i ∈ ((cfg0.win 1).blk t).view.set := by
  have hi0 : (i 0).val < 64 := (i 0).isLt
  have hi1 : (i 1).val < 192 := (i 1).isLt
  have hi2 : (i 2).val < 3136 := (i 2).isLt
  let t : Fin cfg0.N := ⟨(i 0).val, lt_of_lt_of_eq hi0 N_0.symm⟩
  obtain ⟨-, -, -, e0, e1, e2⟩ := idx_facts t
  have ht : t.val = (i 0).val := rfl
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 192 ≤ (i 1).val ∧ (i 1).val < win0_1.index t (1 : Fin 3) * 192 + 192
    omega
  | ⟨2, _⟩ =>
    show win0_1.index t (2 : Fin 3) * 3136 ≤ (i 2).val ∧ (i 2).val < win0_1.index t (2 : Fin 3) * 3136 + 3136
    omega

/-- THE OUTPUT ARRAY after the call: `lrn3` of the input array as the call finds it. -/
theorem final (c : Dev nD) : (dats m 0 c).arrAt 1 cfg0.N = lrn3 (V m c main_v0) :=
  (dats m 0 c).arrAt_eq_of_cover 1 (lrn3 (V m c main_v0)) (fun t _ => flushed_eq m c t) cover

/-! ## The two reshapes -/

/-- The call's input is the argument with its last two axes merged. -/
theorem V_main_v0 (c : Dev nD) :
    (V m c main_v0 : S64x192x3136.Idx → EReal)
      = shapeCast S64x192x3136 (m ((c.tc : Thread nD τ).loc main_arg0)) shapeCasts_S64x192x56x56_S64x192x3136 := by
  show StableHlo.after hostOps0 (fun b => m (c, b)) (Proc.devRef .tc main_v0) = _
  after_results
  rfl

/-- Merging the last two axes: (n, c, 56 h + w) of the merged array is (n, c, h, w) of the original. -/
theorem merge_apply (x : FVec Ideal S64x192x56x56 .f32) (hsc : S64x192x56x56.ShapeCasts S64x192x3136) (n : Fin 64)
    (c : Fin 192) (h w : Fin 56) (l : Fin 3136) (hl : l.val = h.val * 56 + w.val) :
    shapeCast S64x192x3136 x hsc (ix3 n c l) = x (ix4 n c h w) :=
  shapeCast_apply x hsc _ _ (by
    rw [Shape.rowMajor_val_four, Shape.rowMajor_val_three]
    show ((n.val * 192 + c.val) * 56 + h.val) * 56 + w.val = (n.val * 192 + c.val) * 3136 + l.val
    rw [hl]; ring)

/-- Splitting the last axis back: (n, c, h, w) of the split array is (n, c, 56 h + w) of the merged one. -/
theorem split_apply (Y : FVec Ideal S64x192x3136 .f32) (hsc : S64x192x3136.ShapeCasts S64x192x56x56) (n : Fin 64)
    (c : Fin 192) (h w : Fin 56) (l : Fin 3136) (hl : l.val = h.val * 56 + w.val) :
    shapeCast S64x192x56x56 Y hsc (ix4 n c h w) = Y (ix3 n c l) :=
  shapeCast_apply Y hsc _ _ (by
    rw [Shape.rowMajor_val_four, Shape.rowMajor_val_three]
    show (n.val * 192 + c.val) * 3136 + l.val = ((n.val * 192 + c.val) * 56 + h.val) * 56 + w.val
    rw [hl]; ring)

/-- The program's result: the normalized array of its argument. The last reshape reads the call's output at
    (n, c, 56 h + w); the column there of the merged argument is the argument's column at (n, ·, h, w). -/
theorem result_eq (c : Dev nD) :
    Pipeline.afterTail₀ cfgs (dats m) 0 (V0 m) [hostOps1] c main_v2
      = lrn4 (m ((c.tc : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = (dats m 0 c).arrAt 1 cfg0.N :=
    Pipeline.withArrays_arr (cfgs 0).spec launch0.win.arr_inj c (V0 m c) (fun w => (dats m 0 c).arrAt w (cfgs 0).N) 1
  funext i
  show shapeCast S64x192x56x56 (Pipeline.withArrays (cfgs 0).spec c (V0 m c)
    (fun w => (dats m 0 c).arrAt w (cfgs 0).N) (Proc.devRef .tc main_v1)) shapeCasts_S64x192x3136_S64x192x56x56 i = _
  rw [hw, final m c, V_main_v0 m c]
  obtain ⟨n, cc, h, w, rfl⟩ : ∃ (n : Fin 64) (cc : Fin 192) (h w : Fin 56), i = ix4 n cc h w :=
    ⟨i 0, i 1, i 2, i 3, eq_ix4 i⟩
  have hh := h.isLt
  have hw' := w.isLt
  let l : Fin 3136 := ⟨h.val * 56 + w.val, by omega⟩
  rw [split_apply _ shapeCasts_S64x192x3136_S64x192x56x56 n cc h w l rfl, lrn4_apply]
  show lrn (col3 _ n l) cc.val = lrn (col4 _ n h w) cc.val
  refine congrArg (fun col => lrn col cc.val) (funext fun j => ?_)
  unfold col3 col4
  by_cases hj : j < 192
  · rw [dif_pos hj, dif_pos hj]
    exact merge_apply _ shapeCasts_S64x192x56x56_S64x192x3136 n ⟨j, hj⟩ h w l rfl
  · rw [dif_neg hj, dif_neg hj]

/-! ## The run -/

/-- Every weakly fair execution of the program terminates with its result the normalized array of its argument and
    the argument unchanged: the generated frame run, its post read at the result and at the argument. -/
theorem run : θ_run defs (onTc (τ := τ) (main (F := Ideal))) ⟨m, fun _ => 0, ρ⟩ fun r => ∀ c : Dev nD,
      r.2.mem ((c.tc : Thread nD τ).loc main_v2) = lrn4 (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.ArrayValue

end
-- ==== Proof.FiniteInputs.lean ====
/-
  From the precondition to real entries.

  The precondition says that the conjunction, over all entries, of `|x| < +∞` is true. A conjunction over all entries
  that is true is true at every entry; `|x| = max x (-x)` below `+∞` rules out both infinities; so every entry of the
  argument is a real number. This is what the analytic law of the normalization needs.
-/
import proofs.«174724_j51659866636963_2_alg».proof.Proof.Gen.Pre_finite_inputs
import Idealize.ShloMosaic.Lib.ReduceAll
import Idealize.ShloMosaic.Lib.IdealHost
import Idealize.ShloMosaic.Lib.ValueIdx

noncomputable section

namespace Cert.Pre_finite_inputs.Finite

open Cert.Pre_finite_inputs Cert.Pre_finite_inputs.Gen Idealize.ShloMosaic Idealize.ShloMosaic.ValueIdx

/-- A rank-0 array has one index. -/
instance : Subsingleton S_.Idx := ⟨fun a b => funext fun d => d.elim0⟩

/-- The bound the precondition compares with is `+∞`. -/
theorem bound_eq_top : Ideal.ofBits .f32 0x7F800000#32 = ⊤ := by
  simp [Ideal.ofBits, Ideal.ieee]

/-- Under the precondition every entry of the argument is a real number. -/
theorem real_of_pre (x : FVec Ideal S64x192x56x56 .f32) (h : fn (F := Ideal) x = fun _ => 1#1)
    (i : S64x192x56x56.Idx) : ∃ r : ℝ, x i = (r : EReal) := by
  have h0 : fn (F := Ideal) x ix0 = 1#1 := congrFun h ix0
  dsimp only [fn] at h0
  have hi := Host.reduce_andi_all _ _ _ _ ix0 h0 i
  have hi' : Ideal.cmp .olt (max (x i) (-(x i))) (Ideal.ofBits .f32 0x7F800000#32) = 1#1 := hi
  rw [bound_eq_top] at hi'
  have hlt : max (x i) (-(x i)) < ⊤ := by
    by_contra hn
    have h0' : Ideal.cmp .olt (max (x i) (-(x i))) ⊤ = 0#1 := by
      show BitVec.ofBool (decide (max (x i) (-(x i)) < (⊤ : EReal))) = 0#1
      rw [decide_eq_false hn]
      rfl
    rw [h0'] at hi'
    exact absurd hi' (by decide)
  have h1 : x i < ⊤ := lt_of_le_of_lt (le_max_left _ _) hlt
  have h2 : -(x i) < ⊤ := lt_of_le_of_lt (le_max_right _ _) hlt
  generalize x i = v at h1 h2
  induction v using EReal.rec with
  | bot => simp at h2
  | coe r => exact ⟨r, rfl⟩
  | top => simp at h1

end Cert.Pre_finite_inputs.Finite

end
-- ==== Proof.lean ====
/-
  Local response normalization across channels: the kernel against its reference, as extended reals.

  Both programs map x : 64 × 192 × 56 × 56 to x / (1 + α · avg)^(3/4), where avg is one fifth of the sum of the squares
  of the five channel neighbours c - 2 … c + 2 at the same batch entry and spatial position (channels outside 0 … 191
  count as zero), and α and 1/5 are the same single-precision literals in both.

  * The reference pads the squares with two zero channels on each side, adds five slices, and divides x by the power.
    Read at an index it is the quotient form of the column function (Proof/RefColumn.lean).
  * The kernel merges the two spatial axes, runs one grid point per batch entry on a 192 × 3136 block, and in the
    block adds to each square its neighbours at channel distance one and two, obtained by rotating the block along the
    channel axis and zeroing the rows that wrapped around; it multiplies x by exp(-(3/4) · log(1 + α · avg)) instead of
    dividing. Read at an index of a block it is the column function (Proof/KernelColumn.lean); the 64 blocks tile the
    array, and the two reshapes around the call do not touch the channel axis (Proof/KernelArray.lean).
  * The two forms agree where the base 1 + α · avg is a positive real: x / b^p = x · exp(-p · log b)
    (Proof/LibDivPowExp.lean, applied in Proof/LrnSpec.lean). The base is at least one because α, 1/5 and a sum of squares are nonnegative — once every
    entry of x is a real number, which is the precondition (Proof/FiniteInputs.lean). The five window terms are added
    in different orders by the two programs; addition of extended reals is commutative and associative.

  The kernel's idealization rewrote nothing, so `preserves` has no conjunct. The three frames are the generated frame
  of each kernel program and the generated run of the reference.
-/
import proofs.«174724_j51659866636963_2_alg».proof.Defs
import proofs.«174724_j51659866636963_2_alg».proof.Proof.Gen.Kernel
import proofs.«174724_j51659866636963_2_alg».proof.Proof.Gen.Kernel.Skeleton
import proofs.«174724_j51659866636963_2_alg».proof.Proof.Gen.Kernel.Launch
import proofs.«174724_j51659866636963_2_alg».proof.Proof.Gen.Kernel.Points
import proofs.«174724_j51659866636963_2_alg».proof.Proof.Gen.Kernel.Frame
import proofs.«174724_j51659866636963_2_alg».proof.Proof.Gen.KernelIdeal
import proofs.«174724_j51659866636963_2_alg».proof.Proof.Gen.KernelIdeal.Skeleton
import proofs.«174724_j51659866636963_2_alg».proof.Proof.Gen.KernelIdeal.Launch
import proofs.«174724_j51659866636963_2_alg».proof.Proof.Gen.KernelIdeal.Points
import proofs.«174724_j51659866636963_2_alg».proof.Proof.Gen.KernelIdeal.Frame
import proofs.«174724_j51659866636963_2_alg».proof.Proof.Gen.ReferenceIdeal
import proofs.«174724_j51659866636963_2_alg».proof.Proof.Gen.ReferenceIdeal.Run
import proofs.«174724_j51659866636963_2_alg».proof.Proof.Gen.ReferenceIdeal.Read
import proofs.«174724_j51659866636963_2_alg».proof.Proof.Gen.Pre_finite_inputs
import proofs.«174724_j51659866636963_2_alg».proof.Proof.LibDivPowExp
import proofs.«174724_j51659866636963_2_alg».proof.Proof.LrnSpec
import proofs.«174724_j51659866636963_2_alg».proof.Proof.RefColumn
import proofs.«174724_j51659866636963_2_alg».proof.Proof.KernelColumn
import proofs.«174724_j51659866636963_2_alg».proof.Proof.KernelArray
import proofs.«174724_j51659866636963_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its argument unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the normalized array of the argument: the kernel by its blocks and reshapes, the
    reference by its quotient form, which on real entries — the precondition — is the kernel's product form. -/
theorem algebraic : Cert.algebraic_KernelIdeal_ReferenceIdeal := by
  intro m ρ m' ρ' hpre hagree
  refine ⟨fun c => Cert.Lrn.lrn4 (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, hagree c]
  exact Cert.ReferenceIdeal.RefValue.reference_eq_lrn4 _ (Cert.Pre_finite_inputs.Finite.real_of_pre _ (hpre c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
